-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192x128 : Shape := ⟨2, ![8192, 128]⟩
abbrev S8192x1 : Shape := ⟨2, ![8192, 1]⟩
abbrev S8192 : Shape := ⟨1, ![8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192x1 : S_.BroadcastsInDim S8192x1 (![] : Fin 0 → Fin S8192x1.rank)
  reducesTo_S8192x1_S_d0_1 : S8192x1.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg5 : FVec F S8192 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S16x8192 .f32) (main_arg1 : IVec S8192x8192 32) (main_arg2 : FVec F S8192x128 .f32) (main_arg3 : FVec F S8192x128 .f32) (main_arg4 : FVec F S8192x1 .f32) (main_arg5 : FVec F S8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x1 .f32 := Host.absf main_arg4
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg5 main_v13 main_v16
-- ==== Kernel.lean ====
abbrev S16x8192 : Shape := ⟨2, ![16, 8192]⟩
abbrev S8192x8192 : Shape := ⟨2, ![8192, 8192]⟩
abbrev S8192x128 : Shape := ⟨2, ![8192, 128]⟩
abbrev S8192x1 : Shape := ⟨2, ![8192, 1]⟩
abbrev S8192 : Shape := ⟨1, ![8192]⟩
abbrev S1x8192 : Shape := ⟨2, ![1, 8192]⟩
abbrev S256x8192 : Shape := ⟨2, ![256, 8192]⟩
abbrev S256x128 : Shape := ⟨2, ![256, 128]⟩
abbrev S1x256 : Shape := ⟨2, ![1, 256]⟩
abbrev S16x256 : Shape := ⟨2, ![16, 256]⟩
abbrev S256x2048 : Shape := ⟨2, ![256, 2048]⟩
abbrev S256x32x64 : Shape := ⟨3, ![256, 32, 64]⟩
abbrev S256x32 : Shape := ⟨2, ![256, 32]⟩
abbrev S256x32x1 : Shape := ⟨3, ![256, 32, 1]⟩
abbrev S16x2048 : Shape := ⟨2, ![16, 2048]⟩

abbrev nBuf : Space → Nat
  | .hbm => 12
  | .vmem => 11
  | .smem => 0
  | _ => 0

abbrev bufTy : (tb : Table) → Fin (tcTables nBuf tb) → BufTy
  | .hbm, ⟨0, _⟩ => ⟨S16x8192, .f32⟩
  | .hbm, ⟨1, _⟩ => ⟨S8192x8192, .i32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S8192, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S16x8192, .bf16⟩
  | .hbm, ⟨10, _⟩ => ⟨S1x8192, .f32⟩
  | .hbm, ⟨11, _⟩ => ⟨S16x8192, .f32⟩
  | .local _ .vmem, ⟨0, _⟩ => ⟨S16x8192, .bf16⟩
  | .local _ .vmem, ⟨1, _⟩ => ⟨S256x8192, .i32⟩
  | .local _ .vmem, ⟨2, _⟩ => ⟨S256x8192, .i32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S1x256, .f32⟩
  | .local _ .vmem, ⟨8, _⟩ => ⟨S1x256, .f32⟩
  | .local _ .vmem, ⟨9, _⟩ => ⟨S16x256, .f32⟩
  | .local _ .vmem, ⟨10, _⟩ => ⟨S16x256, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S8192x1_S8192x128_0_1 : S8192x1.BroadcastsInDim S8192x128 (![0, 1] : Fin 2 → Fin S8192x128.rank)
  bitsLt_bf16_f32 : FTy.bits .bf16 < FTy.bits .f32
  shapeCasts_S8192_S1x8192 : S8192.ShapeCasts S1x8192
  inb_S256x8192_S256x2048_0_0 : ∀ a, (![0, 0] : Fin 2 → Nat) a + S256x2048.size a ≤ S256x8192.size a
  h_S256x2048 : 0 < S256x2048.numel
  shapeCasts_S256x2048_S256x32x64 : S256x2048.ShapeCasts S256x32x64
  inb_S256x128_S256x32_0_0 : ∀ a, (![0, 0] : Fin 2 → Nat) a + S256x32.size a ≤ S256x128.size a
  h_S256x32 : 0 < S256x32.numel
  shapeCasts_S256x32_S256x32 : S256x32.ShapeCasts S256x32
  shapeCasts_S256x32_S256x32x1 : S256x32.ShapeCasts S256x32x1
  broadcasts_S256x32x1_S256x32x64 : S256x32x1.Broadcasts S256x32x64
  shapeCasts_S256x32x64_S256x2048 : S256x32x64.ShapeCasts S256x2048
  inb_S16x8192_S16x2048_0_0 : ∀ a, (![0, 0] : Fin 2 → Nat) a + S16x2048.size a ≤ S16x8192.size a
  h_S16x2048 : 0 < S16x2048.numel
  shapeCasts_S16x2048_S16x2048 : S16x2048.ShapeCasts S16x2048
  inb_S256x8192_S256x2048_0_2048 : ∀ a, (![0, 2048] : Fin 2 → Nat) a + S256x2048.size a ≤ S256x8192.size a
  inb_S256x128_S256x32_0_32 : ∀ a, (![0, 32] : Fin 2 → Nat) a + S256x32.size a ≤ S256x128.size a
  inb_S16x8192_S16x2048_0_2048 : ∀ a, (![0, 2048] : Fin 2 → Nat) a + S16x2048.size a ≤ S16x8192.size a
  inb_S256x8192_S256x2048_0_4096 : ∀ a, (![0, 4096] : Fin 2 → Nat) a + S256x2048.size a ≤ S256x8192.size a
  inb_S256x128_S256x32_0_64 : ∀ a, (![0, 64] : Fin 2 → Nat) a + S256x32.size a ≤ S256x128.size a
  inb_S16x8192_S16x2048_0_4096 : ∀ a, (![0, 4096] : Fin 2 → Nat) a + S16x2048.size a ≤ S16x8192.size a
  inb_S256x8192_S256x2048_0_6144 : ∀ a, (![0, 6144] : Fin 2 → Nat) a + S256x2048.size a ≤ S256x8192.size a
  inb_S256x128_S256x32_0_96 : ∀ a, (![0, 96] : Fin 2 → Nat) a + S256x32.size a ≤ S256x128.size a
  inb_S16x8192_S16x2048_0_6144 : ∀ a, (![0, 6144] : Fin 2 → Nat) a + S16x2048.size a ≤ S16x8192.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x2048_S256x2048_S16x256_1_1_0_0_n_n_wf : DotDims.WF S16x2048 S256x2048 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .bf16 = 32 ∨ (Rect.block (s := S16x8192) S16x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S8192x128.size a
  hwx0_3 : ∀ i : grid0.Coords, EltTy.bits .f32 = 32 ∨ (Rect.block (s := S8192x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x8192.size a
  hwx0_5 : ∀ i : grid0.Coords, EltTy.bits .f32 = 32 ∨ (Rect.block (s := S16x8192) S16x256.size (cc0_transform_5 i) (hinb0_5 i)).WholeWords (EltTy.packing .f32)

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf

abbrev win0_0 : Pipeline.Window sig grid0 :=
  Pipeline.Window.ofSpec (Memref.whole main_v3) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x8192 : Shape := ⟨2, ![8192, 8192]⟩
abbrev S8192x128 : Shape := ⟨2, ![8192, 128]⟩
abbrev S8192x1 : Shape := ⟨2, ![8192, 1]⟩
abbrev S8192 : Shape := ⟨1, ![8192]⟩
abbrev S8192x128x64 : Shape := ⟨3, ![8192, 128, 64]⟩
abbrev S8192x128x1 : Shape := ⟨3, ![8192, 128, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .i32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S8192, .f32⟩
  | .hbm, ⟨6, _⟩ => ⟨S8192x8192, .f32⟩
  | .hbm, ⟨7, _⟩ => ⟨S8192x128x64, .f32⟩
  | .hbm, ⟨8, _⟩ => ⟨S8192x128x1, .f32⟩
  | .hbm, ⟨9, _⟩ => ⟨S8192x128x64, .f32⟩
  | .hbm, ⟨10, _⟩ => ⟨S8192x128x64, .f32⟩
  | .hbm, ⟨11, _⟩ => ⟨S8192x128x1, .f32⟩
  | .hbm, ⟨12, _⟩ => ⟨S8192x128x64, .f32⟩
  | .hbm, ⟨13, _⟩ => ⟨S8192x128x64, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S16x8192, .f32⟩
  | .hbm, ⟨19, _⟩ => ⟨S1x8192, .f32⟩
  | .hbm, ⟨20, _⟩ => ⟨S16x8192, .f32⟩
  | .hbm, ⟨21, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S8192x8192_S8192x128x64 : S8192x8192.ShapeCasts S8192x128x64
  bcast_S8192x128_S8192x128x1_0_1 : S8192x128.BroadcastsInDim S8192x128x1 (![0, 1] : Fin 2 → Fin S8192x128x1.rank)
  bcast_S8192x128x1_S8192x128x64_0_1_2 : S8192x128x1.BroadcastsInDim S8192x128x64 (![0, 1, 2] : Fin 3 → Fin S8192x128x64.rank)
  shapeCasts_S8192x128x64_S8192x8192 : S8192x128x64.ShapeCasts S8192x8192
  bcast_S8192x1_S8192x8192_0_1 : S8192x1.BroadcastsInDim S8192x8192 (![0, 1] : Fin 2 → Fin S8192x8192.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_0_0_1_n_n_wf : DotDims.WF S16x8192 S8192x8192 S16x8192 [1] [0] [0] [1] [] []

variable [Facts₀]

def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.Chunk.lean ====
/-
  One chunk of the kernel's body, read at an index.

  The body walks the 8192 input columns in four chunks of 2048.  For a chunk it holds a [256, 2048] tile of integer
  codes, the [256, 32] group scales and group zero points that belong to it (64 columns per group) and a [16, 2048]
  tile of activations.  It views the codes as [256, 32, 64], multiplies by the group scale and subtracts the group
  zero point (each spread along the 64 columns of its group), views the result as [256, 2048] again and contracts it
  with the activations over the column axis of both.  At the ideal values the changes of float format are the
  identity, so

      weights (r, k)   = code (r, k) · scale (r, k / 64) − zero (r, k / 64)
      chunkDot (p, r)  = ∑ k < 2048, activation (p, k) · weights (r, k).

  The two payload terms of the body are running sums of four such products from a zero start (`pay2_eq`, `pay3_eq`).
-/
import proofs.«121792_j49761491091553_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx

variable {F : FTy → Type} [FloatOps F]

/-- A chunk's dequantised weight tile: code times group scale minus group zero point, as the body computes it. -/
def weights (q : Vec F S256x2048 .i32) (s z : Vec F S256x32 .f32) : FVec F S256x2048 .bf16 :=
  truncf .bf16 (shapeCast S256x2048 (subf (mulf (shapeCast S256x32x64 (sitofp .f32 q) shapeCasts_S256x2048_S256x32x64)
      (broadcastTo S256x32x64 (shapeCast S256x32x1 (shapeCast S256x32 s shapeCasts_S256x32_S256x32) shapeCasts_S256x32_S256x32x1) broadcasts_S256x32x1_S256x32x64))
      (broadcastTo S256x32x64 (shapeCast S256x32x1 (shapeCast S256x32 z shapeCasts_S256x32_S256x32) shapeCasts_S256x32_S256x32x1) broadcasts_S256x32x1_S256x32x64))
    shapeCasts_S256x32x64_S256x2048) bitsLt_bf16_f32

/-- A chunk's product: the activations against the weight tile, contracted over the columns, into a zero accumulator. -/
def chunkDot (q : Vec F S256x2048 .i32) (s z : Vec F S256x32 .f32) (x : Vec F S16x2048 .bf16) : FVec F S16x256 .f32 :=
  matmul dot_S16x2048_S256x2048_S16x256_1_1_0_0_n_n none (shapeCast S16x2048 x shapeCasts_S16x2048_S16x2048) (weights q s z) (constant S16x256 .f32 0x00000000#32)

/-- The first payload: the zero start plus the products of chunks 0 and 1. -/
theorem pay2_eq (v1 : Vec F S256x2048 .i32) (v4 v7 : Vec F S256x32 .f32) (v16 : Vec F S16x2048 .bf16)
    (v20 : Vec F S256x2048 .i32) (v23 v26 : Vec F S256x32 .f32) (v35 : Vec F S16x2048 .bf16) :
    k0_pay2 v1 v4 v7 v16 v20 v23 v26 v35
      = addf (addf (broadcast S16x256 (Scalar.ofBits .f32 0x00000000#32)) (chunkDot v1 v4 v7 v16)) (chunkDot v20 v23 v26 v35) := rfl

/-- The second payload: what came before plus the products of chunks 2 and 3. -/
theorem pay3_eq (v38 : FVec F S16x256 .f32) (v39 : Vec F S256x2048 .i32) (v42 v45 : Vec F S256x32 .f32) (v54 : Vec F S16x2048 .bf16)
    (v58 : Vec F S256x2048 .i32) (v61 v64 : Vec F S256x32 .f32) (v73 : Vec F S16x2048 .bf16) :
    k0_pay3 v38 v39 v42 v45 v54 v58 v61 v64 v73
      = addf (addf v38 (chunkDot v39 v42 v45 v54)) (chunkDot v58 v61 v64 v73) := rfl

/-! ## The layout steps at an index -/

/-- Viewing [256, 2048] as [256, 32, 64]: entry (r, g, e) is column 64·g + e of row r. -/
theorem groups_apply {α : Type} (w : S256x2048.Idx → α) (r : Fin 256) (g : Fin 32) (e : Fin 64) :
    shapeCast S256x32x64 w shapeCasts_S256x2048_S256x32x64 (ix3 r g e)
      = w (ix2 r ⟨64 * g.val + e.val, by have := g.isLt; have := e.isLt; omega⟩) :=
  shapeCast_apply w shapeCasts_S256x2048_S256x32x64 (ix3 r g e) (ix2 r ⟨64 * g.val + e.val, by have := g.isLt; have := e.isLt; omega⟩)
    (by rewrite [Shape.rowMajor_val_two, Shape.rowMajor_val_three]
        show r.val * 2048 + (64 * g.val + e.val) = (r.val * 32 + g.val) * 64 + e.val
        omega)

/-- Viewing [256, 32, 64] as [256, 2048]: column k of row r is entry (r, k / 64, k % 64). -/
theorem flat_apply {α : Type} (w : S256x32x64.Idx → α) (r : Fin 256) (k : Fin 2048) :
    shapeCast S256x2048 w shapeCasts_S256x32x64_S256x2048 (ix2 r k)
      = w (ix3 r ⟨k.val / 64, by have := k.isLt; omega⟩ ⟨k.val % 64, Nat.mod_lt _ (by decide)⟩) :=
  shapeCast_apply w shapeCasts_S256x32x64_S256x2048 (ix2 r k) (ix3 r ⟨k.val / 64, by have := k.isLt; omega⟩ ⟨k.val % 64, Nat.mod_lt _ (by decide)⟩)
    (by rewrite [Shape.rowMajor_val_three, Shape.rowMajor_val_two]
        show (r.val * 32 + k.val / 64) * 64 + k.val % 64 = r.val * 2048 + k.val
        omega)

/-- A per-group value spread along its group's 64 columns: entry (r, g, e) is the value of group g of row r. -/
theorem spread_apply {α : Type} (v : S256x32.Idx → α) (r : Fin 256) (g : Fin 32) (e : Fin 64) :
    broadcastTo S256x32x64 (shapeCast S256x32x1 (shapeCast S256x32 v shapeCasts_S256x32_S256x32) shapeCasts_S256x32_S256x32x1)
      broadcasts_S256x32x1_S256x32x64 (ix3 r g e) = v (ix2 r g) := by
  refine (broadcastTo_apply _ broadcasts_S256x32x1_S256x32x64 (ix3 r g e) (ix3 r g (0 : Fin 1)) (fun a => match a with
    | ⟨0, _⟩ => by show r.val = (if (256 : Nat) = 1 then 0 else r.val); rw [if_neg (by decide)]
    | ⟨1, _⟩ => by show g.val = (if (32 : Nat) = 1 then 0 else g.val); rw [if_neg (by decide)]
    | ⟨2, _⟩ => by show 0 = (if (1 : Nat) = 1 then 0 else e.val); rw [if_pos rfl])).trans ?_
  rw [shapeCast_self]
  exact shapeCast_apply v shapeCasts_S256x32_S256x32x1 (ix3 r g (0 : Fin 1)) (ix2 r g)
    (by rewrite [Shape.rowMajor_val_two, Shape.rowMajor_val_three]
        show r.val * 32 + g.val = (r.val * 32 + g.val) * 1 + 0
        omega)

/-! ## The chunk at the ideal values -/

/-- The conversion to bf16 keeps every entry: a change of float format is the identity at the ideal values. -/
theorem trunc_apply {t : Shape} (a : FVec Ideal t .f32) (i : t.Idx) :
    (truncf .bf16 a bitsLt_bf16_f32 : FVec Ideal t .bf16) i = a i := rfl

/-- The weight tile at row r, column k. -/
theorem weights_apply (q : Vec Ideal S256x2048 .i32) (s z : Vec Ideal S256x32 .f32) (r : Fin 256) (k : Fin 2048) :
    weights (F := Ideal) q s z (ix2 r k)
      = (((q (ix2 r k)).toInt : ℝ) : EReal) * s (ix2 r ⟨k.val / 64, by have := k.isLt; omega⟩)
        - z (ix2 r ⟨k.val / 64, by have := k.isLt; omega⟩) := by
  unfold weights
  refine (trunc_apply _ _).trans ?_
  refine (flat_apply _ r k).trans ?_
  refine (subf_apply _ _ _).trans ?_
  rw [spread_apply]
  refine congrArg (· - z (ix2 r ⟨k.val / 64, by have := k.isLt; omega⟩)) ?_
  refine (mulf_apply _ _ _).trans ?_
  rw [spread_apply, groups_apply]
  have hk : (⟨64 * (k.val / 64) + k.val % 64, by have := k.isLt; omega⟩ : Fin 2048) = k := Fin.ext (by show 64 * (k.val / 64) + k.val % 64 = k.val; omega)
  rw [hk]
  rfl

theorem lhs_0 (i : S16x256.Idx) (c : dot_S16x2048_S256x2048_S16x256_1_1_0_0_n_n.contr.Idx) : (dot_S16x2048_S256x2048_S16x256_1_1_0_0_n_n.lhsIdx i c 0).val = (i 0).val := by
  unfold DotDims.lhsIdx
  rw [dif_neg (show ¬(0 : Fin S16x2048.rank) ∈ dot_S16x2048_S256x2048_S16x256_1_1_0_0_n_n.lhsBatch by decide), dif_pos (show (0 : Fin S16x2048.rank) ∈ dot_S16x2048_S256x2048_S16x256_1_1_0_0_n_n.lhsNonContracting by decide)]
  rfl
theorem lhs_1 (i : S16x256.Idx) (c : dot_S16x2048_S256x2048_S16x256_1_1_0_0_n_n.contr.Idx) : (dot_S16x2048_S256x2048_S16x256_1_1_0_0_n_n.lhsIdx i c 1).val = (c ⟨0, by decide⟩).val :=
  dot_S16x2048_S256x2048_S16x256_1_1_0_0_n_n.lhsIdx_val_of_single rfl i c
theorem rhs_0 (i : S16x256.Idx) (c : dot_S16x2048_S256x2048_S16x256_1_1_0_0_n_n.contr.Idx) : (dot_S16x2048_S256x2048_S16x256_1_1_0_0_n_n.rhsIdx i c 0).val = (i 1).val := by
  unfold DotDims.rhsIdx
  rw [dif_neg (show ¬(0 : Fin S256x2048.rank) ∈ dot_S16x2048_S256x2048_S16x256_1_1_0_0_n_n.rhsBatch by decide), dif_pos (show (0 : Fin S256x2048.rank) ∈ dot_S16x2048_S256x2048_S16x256_1_1_0_0_n_n.rhsNonContracting by decide)]
  rfl
theorem rhs_1 (i : S16x256.Idx) (c : dot_S16x2048_S256x2048_S16x256_1_1_0_0_n_n.contr.Idx) : (dot_S16x2048_S256x2048_S16x256_1_1_0_0_n_n.rhsIdx i c 1).val = (c ⟨0, by decide⟩).val :=
  dot_S16x2048_S256x2048_S16x256_1_1_0_0_n_n.rhsIdx_val_of_single rfl i c

/-- The chunk's product at token p, output row r: the sum over the chunk's columns of activation times weight. -/
theorem chunkDot_apply (q : Vec Ideal S256x2048 .i32) (s z : Vec Ideal S256x32 .f32) (x : Vec Ideal S16x2048 .bf16)
    (p : Fin 16) (r : Fin 256) :
    chunkDot (F := Ideal) q s z x (ix2 p r)
      = ∑ k : Fin 2048, x (ix2 p k) * ((((q (ix2 r k)).toInt : ℝ) : EReal) * s (ix2 r ⟨k.val / 64, by have := k.isLt; omega⟩)
          - z (ix2 r ⟨k.val / 64, by have := k.isLt; omega⟩)) := by
  unfold chunkDot
  simp only [matmul]
  rw [Ideal.matmul_constant_zero_apply, ← Equiv.sum_comp (ValueIdx.contrEquiv1 dot_S16x2048_S256x2048_S16x256_1_1_0_0_n_n 2048 rfl rfl).symm]
  refine Finset.sum_congr rfl fun k _ => ?_
  have hk := ValueIdx.contrEquiv1_symm_val dot_S16x2048_S256x2048_S16x256_1_1_0_0_n_n 2048 rfl rfl k
  have el : dot_S16x2048_S256x2048_S16x256_1_1_0_0_n_n.lhsIdx (ix2 p r) ((ValueIdx.contrEquiv1 dot_S16x2048_S256x2048_S16x256_1_1_0_0_n_n 2048 rfl rfl).symm k) = ix2 p k := funext fun a => Fin.ext (by
    match a with
    | ⟨0, _⟩ => exact lhs_0 _ _
    | ⟨1, _⟩ => exact (lhs_1 _ _).trans hk)
  have er : dot_S16x2048_S256x2048_S16x256_1_1_0_0_n_n.rhsIdx (ix2 p r) ((ValueIdx.contrEquiv1 dot_S16x2048_S256x2048_S16x256_1_1_0_0_n_n 2048 rfl rfl).symm k) = ix2 r k := funext fun a => Fin.ext (by
    match a with
    | ⟨0, _⟩ => exact rhs_0 _ _
    | ⟨1, _⟩ => exact (rhs_1 _ _).trans hk)
  rw [el, er, shapeCast_self, weights_apply]

end Cert.KernelIdeal.Chunk

end
-- ==== Proof.Algebra.lean ====
/-
  The pure algebra behind the dequantise-and-multiply kernel, with no program in sight.

  * A sum over the 8192 input columns is the sum, chunk by chunk, of the four runs of 2048 consecutive columns
    (`sum_by_chunks`): only the commutative-monoid laws of addition are used, so it holds on the extended reals
    whatever the summands are.
  * An integer code `q` dequantised with a group scale `s`, a group zero point `z` and a row scale `s2`:
    folding the row scale into the group constants first, `q·(s·s2) − z·(s·s2)`, gives the same weight as
    `((q − z)·s)·s2` (`dequant_law`).  This is distributivity, which fails at the infinities of the extended reals
    and holds for real numbers; it is the one place where the finiteness of the inputs is used.
-/
import Idealize.ShloMosaic.PureOps.Ideal.Laws
import Idealize.ShloMosaic.Lib.ValueIdx

noncomputable section

namespace Cert.Sinq

open Idealize.ShloMosaic

/-- Column `j` of chunk `c`: the columns are cut into four runs of 2048. -/
abbrev chunkCol (c : Fin 4) (j : Fin 2048) : Fin 8192 := ⟨2048 * c.val + j.val, by have := c.isLt; have := j.isLt; omega⟩

/-- The quantisation group of a column: 64 consecutive columns share one scale and one zero point. -/
abbrev groupOf (k : Fin 8192) : Fin 128 := ⟨k.val / 64, by have := k.isLt; omega⟩

/-- Two rank-2 indices with the same coordinates are equal. -/
theorem idx2_ext {n0 n1 : Nat} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-- A sum over all columns is the sum over the chunks of the sums over each chunk's columns. -/
theorem sum_by_chunks {M : Type*} [AddCommMonoid M] (f : Fin 8192 → M) :
    ∑ k, f k = ∑ c : Fin 4, ∑ j : Fin 2048, f (chunkCol c j) := by
  let g : Fin (4 * 2048) → M := f
  have e : ∑ k : Fin (4 * 2048), g k = ∑ x : Fin 4 × Fin 2048, g (finProdFinEquiv x) :=
    (Equiv.sum_comp (finProdFinEquiv (m := 4) (n := 2048)) g).symm
  rw [show (∑ k, f k) = ∑ k : Fin (4 * 2048), g k from rfl, e, Fintype.sum_prod_type]
  refine Finset.sum_congr rfl fun c _ => Finset.sum_congr rfl fun j _ => congrArg f (Fin.ext ?_)
  show j.val + 2048 * c.val = 2048 * c.val + j.val
  omega

/-- The same, in the order a running accumulator started at zero adds the four chunks. -/
theorem sum_by_chunks_acc {M : Type*} [AddCommMonoid M] (f : Fin 8192 → M) :
    ∑ k, f k = (((0 + ∑ j : Fin 2048, f (chunkCol 0 j)) + ∑ j : Fin 2048, f (chunkCol 1 j))
      + ∑ j : Fin 2048, f (chunkCol 2 j)) + ∑ j : Fin 2048, f (chunkCol 3 j) := by
  rw [sum_by_chunks, Fin.sum_univ_four, zero_add]

/-- Folding the row scale into the group scale and zero point before dequantising changes nothing, for real numbers. -/
theorem dequant_law (q s z s2 : ℝ) :
    (q : EReal) * ((s : EReal) * (s2 : EReal)) - (z : EReal) * ((s : EReal) * (s2 : EReal))
      = (((q : EReal) - (z : EReal)) * (s : EReal)) * (s2 : EReal) := by
  rw [← EReal.coe_mul, ← EReal.coe_mul, ← EReal.coe_mul, ← EReal.coe_sub, ← EReal.coe_sub, ← EReal.coe_mul,
    ← EReal.coe_mul]
  exact congrArg _ (by ring)

/-! ## The specification -/

/-- The dequantised weight of output row `o` at input column `k`: the code less its group's zero point, times its
    group's scale, times the row's scale. -/
def weight (q : (⟨2, ![8192, 8192]⟩ : Shape).Idx → BitVec 32) (s z : (⟨2, ![8192, 128]⟩ : Shape).Idx → EReal)
    (s2 : (⟨2, ![8192, 1]⟩ : Shape).Idx → EReal) (o k : Fin 8192) : EReal :=
  (((((q (ValueIdx.ix2 o k)).toInt : ℝ) : EReal) - z (ValueIdx.ix2 o (groupOf k))) * s (ValueIdx.ix2 o (groupOf k)))
    * s2 (ValueIdx.ix2 o (0 : Fin 1))

/-- The linear layer over the dequantised weights: entry (t, o) is the activations of token `t` against row `o` of the
    weights, plus the bias of row `o`. -/
def result (x : (⟨2, ![16, 8192]⟩ : Shape).Idx → EReal) (q : (⟨2, ![8192, 8192]⟩ : Shape).Idx → BitVec 32)
    (s z : (⟨2, ![8192, 128]⟩ : Shape).Idx → EReal) (s2 : (⟨2, ![8192, 1]⟩ : Shape).Idx → EReal)
    (b : (⟨1, ![8192]⟩ : Shape).Idx → EReal) : (⟨2, ![16, 8192]⟩ : Shape).Idx → EReal :=
  fun i => (∑ k : Fin 8192, x (ValueIdx.ix2 (i 0) k) * weight q s z s2 (i 1) k) + b (ValueIdx.ix1 (i 1))

/-- The weight with the row scale folded into the group constants first, as the kernel forms it. -/
def foldedWeight (q : (⟨2, ![8192, 8192]⟩ : Shape).Idx → BitVec 32) (s z : (⟨2, ![8192, 128]⟩ : Shape).Idx → EReal)
    (s2 : (⟨2, ![8192, 1]⟩ : Shape).Idx → EReal) (o k : Fin 8192) : EReal :=
  (((q (ValueIdx.ix2 o k)).toInt : ℝ) : EReal) * (s (ValueIdx.ix2 o (groupOf k)) * s2 (ValueIdx.ix2 o (0 : Fin 1)))
    - z (ValueIdx.ix2 o (groupOf k)) * (s (ValueIdx.ix2 o (groupOf k)) * s2 (ValueIdx.ix2 o (0 : Fin 1)))

/-- When the group constants and the row scales are real numbers, the folded weight is the weight. -/
theorem foldedWeight_eq (q : (⟨2, ![8192, 8192]⟩ : Shape).Idx → BitVec 32) (s z : (⟨2, ![8192, 128]⟩ : Shape).Idx → EReal)
    (s2 : (⟨2, ![8192, 1]⟩ : Shape).Idx → EReal)
    (hs : ∀ i, ∃ r : ℝ, s i = r) (hz : ∀ i, ∃ r : ℝ, z i = r) (hs2 : ∀ i, ∃ r : ℝ, s2 i = r) (o k : Fin 8192) :
    foldedWeight q s z s2 o k = weight q s z s2 o k := by
  obtain ⟨a, ha⟩ := hs (ValueIdx.ix2 o (groupOf k))
  obtain ⟨b, hb⟩ := hz (ValueIdx.ix2 o (groupOf k))
  obtain ⟨c, hc⟩ := hs2 (ValueIdx.ix2 o (0 : Fin 1))
  unfold foldedWeight weight
  rw [ha, hb, hc]
  exact dequant_law _ a b c

/-- The linear layer over the folded weights: what the kernel's array holds. -/
def foldedResult (x : (⟨2, ![16, 8192]⟩ : Shape).Idx → EReal) (q : (⟨2, ![8192, 8192]⟩ : Shape).Idx → BitVec 32)
    (s z : (⟨2, ![8192, 128]⟩ : Shape).Idx → EReal) (s2 : (⟨2, ![8192, 1]⟩ : Shape).Idx → EReal)
    (b : (⟨1, ![8192]⟩ : Shape).Idx → EReal) : (⟨2, ![16, 8192]⟩ : Shape).Idx → EReal :=
  fun i => (∑ k : Fin 8192, x (ValueIdx.ix2 (i 0) k) * foldedWeight q s z s2 (i 1) k) + b (ValueIdx.ix1 (i 1))

/-- With real group constants and row scales the two linear layers agree, whatever the activations and the bias. -/
theorem foldedResult_eq (x : (⟨2, ![16, 8192]⟩ : Shape).Idx → EReal) (q : (⟨2, ![8192, 8192]⟩ : Shape).Idx → BitVec 32)
    (s z : (⟨2, ![8192, 128]⟩ : Shape).Idx → EReal) (s2 : (⟨2, ![8192, 1]⟩ : Shape).Idx → EReal)
    (b : (⟨1, ![8192]⟩ : Shape).Idx → EReal)
    (hs : ∀ i, ∃ r : ℝ, s i = r) (hz : ∀ i, ∃ r : ℝ, z i = r) (hs2 : ∀ i, ∃ r : ℝ, s2 i = r) :
    foldedResult x q s z s2 b = result x q s z s2 b := by
  funext i
  unfold foldedResult result
  refine congrArg (· + b (ValueIdx.ix1 (i 1))) (Finset.sum_congr rfl fun k _ => ?_)
  exact congrArg (x (ValueIdx.ix2 (i 0) k) * ·) (foldedWeight_eq q s z s2 hs hz hs2 (i 1) k)

end Cert.Sinq

end
-- ==== Proof.Block.lean ====
/-
  What the body leaves in its [16, 256] output block, from the five input blocks, entry by entry.

  The body reads chunk `c` of the codes block [256, 8192] (columns 2048·c …), the matching 32 groups of the two
  [256, 128] group-constant blocks (groups 32·c …) and chunk `c` of the activations [16, 8192]; the four chunk
  products are added to a zero start and the bias row is added last.  With the chunked-sum law this is, at (p, r),

      ∑ k < 8192, x (p, k) · (code (r, k) · scale2 (r, k / 64) − zs (r, k / 64))  +  bias (0, r).
-/
import proofs.«121792_j49761491091553_2_alg».proof.Proof.Gen.KernelIdeal.Value
import proofs.«121792_j49761491091553_2_alg».proof.Proof.Chunk
import proofs.«121792_j49761491091553_2_alg».proof.Proof.Algebra

noncomputable section

namespace Cert.KernelIdeal.Block

open Cert.KernelIdeal Cert.KernelIdeal.Gen Idealize.ShloMosaic Idealize.ShloMosaic.ValueIdx
open Cert.Sinq Cert.KernelIdeal.Chunk

/-- One summand of the block entry (p, r): the activation at column k times the weight the kernel forms there. -/
def term (x0 : Vec Ideal S16x8192 .bf16) (x1 : Vec Ideal S256x8192 .i32) (x2 x3 : Vec Ideal S256x128 .f32)
    (p : Fin 16) (r : Fin 256) (k : Fin 8192) : EReal :=
  x0 (ix2 p k) * ((((x1 (ix2 r k)).toInt : ℝ) : EReal) * x2 (ix2 r (groupOf k)) - x3 (ix2 r (groupOf k)))

/-- A chunk product over tiles that are chunk `c` of the blocks is the sum of the chunk's summands. -/
theorem chunk_of_tiles (x0 : Vec Ideal S16x8192 .bf16) (x1 : Vec Ideal S256x8192 .i32) (x2 x3 : Vec Ideal S256x128 .f32)
    (p : Fin 16) (r : Fin 256) (c : Fin 4)
    (Q : Vec Ideal S256x2048 .i32) (S Z : Vec Ideal S256x32 .f32) (X : Vec Ideal S16x2048 .bf16)
    (hQ : ∀ (r : Fin 256) (j : Fin 2048), Q (ix2 r j) = x1 (ix2 r (chunkCol c j)))
    (hS : ∀ (r : Fin 256) (j : Fin 2048), S (ix2 r ⟨j.val / 64, by have := j.isLt; omega⟩) = x2 (ix2 r (groupOf (chunkCol c j))))
    (hZ : ∀ (r : Fin 256) (j : Fin 2048), Z (ix2 r ⟨j.val / 64, by have := j.isLt; omega⟩) = x3 (ix2 r (groupOf (chunkCol c j))))
    (hX : ∀ (p : Fin 16) (j : Fin 2048), X (ix2 p j) = x0 (ix2 p (chunkCol c j))) :
    chunkDot (F := Ideal) Q S Z X (ix2 p r) = ∑ j : Fin 2048, term x0 x1 x2 x3 p r (chunkCol c j) := by
  rw [chunkDot_apply]
  refine Finset.sum_congr rfl fun j _ => ?_
  rw [hQ, hS, hZ, hX]
  rfl

/-- The block entry (p, r). -/
theorem out_apply (x0 : Vec Ideal S16x8192 .bf16) (x1 : Vec Ideal S256x8192 .i32) (x2 x3 : Vec Ideal S256x128 .f32)
    (x4 : Vec Ideal S1x256 .f32) (p : Fin 16) (r : Fin 256) :
    out0_5 x0 x1 x2 x3 x4 (ix2 p r) = (∑ k : Fin 8192, term x0 x1 x2 x3 p r k) + x4 (ix2 (0 : Fin 1) r) := by
  have h0 := chunk_of_tiles x0 x1 x2 x3 p r 0 (View.ld x1 r0_0) (View.ld x2 r0_1) (View.ld x3 r0_1) (View.ld x0 r0_2)
    (fun r j => congrArg x1 (idx2_ext _ _ (by show 0 + 1 * r.val = r.val; omega) (by show 0 + 1 * j.val = 2048 * 0 + j.val; omega)))
    (fun r j => congrArg x2 (idx2_ext _ _ (by show 0 + 1 * r.val = r.val; omega) (by show 0 + 1 * (j.val / 64) = (2048 * 0 + j.val) / 64; omega)))
    (fun r j => congrArg x3 (idx2_ext _ _ (by show 0 + 1 * r.val = r.val; omega) (by show 0 + 1 * (j.val / 64) = (2048 * 0 + j.val) / 64; omega)))
    (fun p j => congrArg x0 (idx2_ext _ _ (by show 0 + 1 * p.val = p.val; omega) (by show 0 + 1 * j.val = 2048 * 0 + j.val; omega)))
  have h1 := chunk_of_tiles x0 x1 x2 x3 p r 1 (View.ld x1 r0_3) (View.ld x2 r0_4) (View.ld x3 r0_4) (View.ld x0 r0_5)
    (fun r j => congrArg x1 (idx2_ext _ _ (by show 0 + 1 * r.val = r.val; omega) (by show 2048 + 1 * j.val = 2048 * 1 + j.val; omega)))
    (fun r j => congrArg x2 (idx2_ext _ _ (by show 0 + 1 * r.val = r.val; omega) (by show 32 + 1 * (j.val / 64) = (2048 * 1 + j.val) / 64; omega)))
    (fun r j => congrArg x3 (idx2_ext _ _ (by show 0 + 1 * r.val = r.val; omega) (by show 32 + 1 * (j.val / 64) = (2048 * 1 + j.val) / 64; omega)))
    (fun p j => congrArg x0 (idx2_ext _ _ (by show 0 + 1 * p.val = p.val; omega) (by show 2048 + 1 * j.val = 2048 * 1 + j.val; omega)))
  have h2 := chunk_of_tiles x0 x1 x2 x3 p r 2 (View.ld x1 r0_6) (View.ld x2 r0_7) (View.ld x3 r0_7) (View.ld x0 r0_8)
    (fun r j => congrArg x1 (idx2_ext _ _ (by show 0 + 1 * r.val = r.val; omega) (by show 4096 + 1 * j.val = 2048 * 2 + j.val; omega)))
    (fun r j => congrArg x2 (idx2_ext _ _ (by show 0 + 1 * r.val = r.val; omega) (by show 64 + 1 * (j.val / 64) = (2048 * 2 + j.val) / 64; omega)))
    (fun r j => congrArg x3 (idx2_ext _ _ (by show 0 + 1 * r.val = r.val; omega) (by show 64 + 1 * (j.val / 64) = (2048 * 2 + j.val) / 64; omega)))
    (fun p j => congrArg x0 (idx2_ext _ _ (by show 0 + 1 * p.val = p.val; omega) (by show 4096 + 1 * j.val = 2048 * 2 + j.val; omega)))
  have h3 := chunk_of_tiles x0 x1 x2 x3 p r 3 (View.ld x1 r0_9) (View.ld x2 r0_10) (View.ld x3 r0_10) (View.ld x0 r0_11)
    (fun r j => congrArg x1 (idx2_ext _ _ (by show 0 + 1 * r.val = r.val; omega) (by show 6144 + 1 * j.val = 2048 * 3 + j.val; omega)))
    (fun r j => congrArg x2 (idx2_ext _ _ (by show 0 + 1 * r.val = r.val; omega) (by show 96 + 1 * (j.val / 64) = (2048 * 3 + j.val) / 64; omega)))
    (fun r j => congrArg x3 (idx2_ext _ _ (by show 0 + 1 * r.val = r.val; omega) (by show 96 + 1 * (j.val / 64) = (2048 * 3 + j.val) / 64; omega)))
    (fun p j => congrArg x0 (idx2_ext _ _ (by show 0 + 1 * p.val = p.val; omega) (by show 6144 + 1 * j.val = 2048 * 3 + j.val; omega)))
  have hb : (View.ld x4 r0_12) (ix2 (0 : Fin 1) r) = x4 (ix2 (0 : Fin 1) r) :=
    congrArg x4 (idx2_ext _ _ (by show 0 + 1 * 0 = 0; omega) (by show 0 + 1 * r.val = r.val; omega))
  have hz : (Scalar.ofBits (F := Ideal) .f32 0x00000000#32 : EReal) = 0 := Ideal.ofBits_zero_f32
  have e0 : Value.ix5_0 (ix2 p r) = ix2 p r := idx2_ext _ _ rfl rfl
  have e1 : Value.ix5_1 (ix2 p r) = ix2 (0 : Fin 1) r := idx2_ext _ _ rfl rfl
  unfold out0_5
  rw [Value.canon5_eq]
  dsimp only [Value.E5]
  rw [e0, e1, pay3_eq, pay2_eq, sum_by_chunks_acc, ← h0, ← h1, ← h2, ← h3, ← hb, ← hz]
  rfl

/-- Row `r` of output tile `T`: the grid cuts the 8192 output rows into 32 tiles of 256. -/
abbrev tileRow (T : Fin 32) (r : Fin 256) : Fin 8192 := ⟨256 * T.val + r.val, by have := T.isLt; have := r.isLt; omega⟩

/-- A block whose inputs are tile `T` of the region-entry arrays — the activations whole, rows 256·T … of the codes
    and of the folded group constants, columns 256·T … of the bias row — is tile `T` of the folded linear layer. -/
theorem block_eq (X : S16x8192.Idx → EReal) (Q : S8192x8192.Idx → BitVec 32) (S Z : S8192x128.Idx → EReal)
    (S2 : S8192x1.Idx → EReal) (B : S8192.Idx → EReal) (T : Fin 32)
    (x0 : Vec Ideal S16x8192 .bf16) (x1 : Vec Ideal S256x8192 .i32) (x2 x3 : Vec Ideal S256x128 .f32) (x4 : Vec Ideal S1x256 .f32)
    (h0 : ∀ (p : Fin 16) (k : Fin 8192), x0 (ix2 p k) = X (ix2 p k))
    (h1 : ∀ (r : Fin 256) (k : Fin 8192), x1 (ix2 r k) = Q (ix2 (tileRow T r) k))
    (h2 : ∀ (r : Fin 256) (g : Fin 128), x2 (ix2 r g) = S (ix2 (tileRow T r) g) * S2 (ix2 (tileRow T r) (0 : Fin 1)))
    (h3 : ∀ (r : Fin 256) (g : Fin 128), x3 (ix2 r g)
        = Z (ix2 (tileRow T r) g) * (S (ix2 (tileRow T r) g) * S2 (ix2 (tileRow T r) (0 : Fin 1))))
    (h4 : ∀ r : Fin 256, x4 (ix2 (0 : Fin 1) r) = B (ix1 (tileRow T r)))
    (y : S16x256.Idx) (i : S16x8192.Idx) (hi0 : (i 0).val = (y 0).val) (hi1 : (i 1).val = 256 * T.val + (y 1).val) :
    out0_5 x0 x1 x2 x3 x4 y = foldedResult X Q S Z S2 B i := by
  obtain ⟨p, r, rfl⟩ : ∃ (p : Fin 16) (r : Fin 256), y = ix2 p r := ⟨y 0, y 1, eq_ix2 y⟩
  have hi : i = ix2 p (tileRow T r) := idx2_ext _ _ hi0 hi1
  rw [hi, out_apply, h4]
  show _ = (∑ k : Fin 8192, X (ix2 p k) * foldedWeight Q S Z S2 (tileRow T r) k) + B (ix1 (tileRow T r))
  refine congrArg (· + B (ix1 (tileRow T r))) (Finset.sum_congr rfl fun k _ => ?_)
  unfold term foldedWeight
  rw [h0, h1, h2, h3]

end Cert.KernelIdeal.Block

end
-- ==== Proof.Entry.lean ====
/-
  What the kernel's windows find in their arrays when the region is entered.

  Before the region @main folds the row scale into the group constants and re-lays two arguments:

      scale2 (o, g) = scale (o, g) · s2 (o, 0)                 (window 2)
      zs (o, g)     = zero (o, g) · scale2 (o, g)              (window 3)
      the activations converted to bf16 — the same numbers at the ideal values   (window 0)
      the bias [8192] viewed as one row [1, 8192]              (window 4)

  and the integer codes (window 1) are the argument itself.
-/
import proofs.«121792_j49761491091553_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The six argument arrays as launched, by name -/

/-- The activations, [tokens, in]. -/
abbrev argX (c : Dev nD) : S16x8192.Idx → EReal := m ((c : Thread nD τ).loc main_arg0)
/-- The integer codes, [out, in]. -/
abbrev argQ (c : Dev nD) : S8192x8192.Idx → BitVec 32 := m ((c : Thread nD τ).loc main_arg1)
/-- The group scales, [out, groups]. -/
abbrev argS (c : Dev nD) : S8192x128.Idx → EReal := m ((c : Thread nD τ).loc main_arg2)
/-- The group zero points, [out, groups]. -/
abbrev argZ (c : Dev nD) : S8192x128.Idx → EReal := m ((c : Thread nD τ).loc main_arg3)
/-- The row scales, [out, 1]. -/
abbrev argS2 (c : Dev nD) : S8192x1.Idx → EReal := m ((c : Thread nD τ).loc main_arg4)
/-- The bias, [out]. -/
abbrev argB (c : Dev nD) : S8192.Idx → EReal := m ((c : Thread nD τ).loc main_arg5)

/-! ## The windows' arrays at region entry -/

/-- The activations' window reads the converted argument. -/
theorem V_x (c : Dev nD) : (V m c main_v3 : S16x8192.Idx → EReal)
    = (truncf .bf16 (argX m c : FVec Ideal S16x8192 .f32) bitsLt_bf16_f32 : FVec Ideal S16x8192 .bf16) := by
  dsimp only [Gen.V, Gen.hostOps0]; after_results <;> rfl

/-- The folded scale. -/
theorem V_scale2 (c : Dev nD) : (V m c main_v1 : S8192x128.Idx → EReal)
    = (mulf (argS m c : FVec Ideal S8192x128 .f32)
        (broadcastInDim S8192x128 ![0, 1] bcast_S8192x1_S8192x128_0_1 (argS2 m c : FVec Ideal S8192x1 .f32)) : FVec Ideal S8192x128 .f32) := by
  dsimp only [Gen.V, Gen.hostOps0]; after_results <;> rfl

/-- The folded zero point. -/
theorem V_zs (c : Dev nD) : (V m c main_v2 : S8192x128.Idx → EReal)
    = (mulf (argZ m c : FVec Ideal S8192x128 .f32) (mulf (argS m c : FVec Ideal S8192x128 .f32)
        (broadcastInDim S8192x128 ![0, 1] bcast_S8192x1_S8192x128_0_1 (argS2 m c : FVec Ideal S8192x1 .f32))) : FVec Ideal S8192x128 .f32) := by
  dsimp only [Gen.V, Gen.hostOps0]; after_results <;> rfl

/-- The bias as one row. -/
theorem V_bias (c : Dev nD) : (V m c main_v4 : S1x8192.Idx → EReal)
    = shapeCast S1x8192 (argB m c) shapeCasts_S8192_S1x8192 := by
  dsimp only [Gen.V, Gen.hostOps0]; after_results <;> rfl

/-- The codes' window reads the argument itself. -/
theorem V_q (c : Dev nD) : (V m c main_arg1 : S8192x8192.Idx → BitVec 32) = argQ m c := V_main_arg1 m c

/-! ## Read at an index -/

theorem x_apply (c : Dev nD) (p : Fin 16) (k : Fin 8192) :
    (V m c main_v3 : S16x8192.Idx → EReal) (ix2 p k) = argX m c (ix2 p k) := by
  rw [V_x]; rfl

/-- The row scale spread over the groups: entry (o, g) is the row's scale. -/
theorem rowScale_apply (s2 : S8192x1.Idx → EReal) (o : Fin 8192) (g : Fin 128) :
    broadcastInDim S8192x128 ![0, 1] bcast_S8192x1_S8192x128_0_1 s2 (ix2 o g) = s2 (ix2 o (0 : Fin 1)) :=
  broadcastInDim_apply _ bcast_S8192x1_S8192x128_0_1 s2 (ix2 o g) (ix2 o (0 : Fin 1)) (fun a => match a with
    | ⟨0, _⟩ => by show o.val = (if (8192 : Nat) = 1 then 0 else o.val); rw [if_neg (by decide)]
    | ⟨1, _⟩ => by show 0 = (if (1 : Nat) = 1 then 0 else g.val); rw [if_pos rfl])

theorem scale2_apply (c : Dev nD) (o : Fin 8192) (g : Fin 128) :
    (V m c main_v1 : S8192x128.Idx → EReal) (ix2 o g) = argS m c (ix2 o g) * argS2 m c (ix2 o (0 : Fin 1)) := by
  rw [V_scale2]
  refine (mulf_apply _ _ _).trans ?_
  rw [rowScale_apply]

theorem zs_apply (c : Dev nD) (o : Fin 8192) (g : Fin 128) :
    (V m c main_v2 : S8192x128.Idx → EReal) (ix2 o g)
      = argZ m c (ix2 o g) * (argS m c (ix2 o g) * argS2 m c (ix2 o (0 : Fin 1))) := by
  rw [V_zs]
  refine (mulf_apply _ _ _).trans ?_
  refine congrArg (argZ m c (ix2 o g) * ·) ?_
  refine (mulf_apply _ _ _).trans ?_
  rw [rowScale_apply]

theorem bias_apply (c : Dev nD) (o : Fin 8192) :
    (V m c main_v4 : S1x8192.Idx → EReal) (ix2 (0 : Fin 1) o) = argB m c (ix1 o) := by
  rw [V_bias]
  exact shapeCast_apply _ shapeCasts_S8192_S1x8192 (ix2 (0 : Fin 1) o) (ix1 o)
    (by rewrite [Shape.rowMajor_val_one, Shape.rowMajor_val_two]
        show o.val = 0 * 8192 + o.val
        omega)

end Cert.KernelIdeal.Entry

end
-- ==== Proof.Whole.lean ====
/-
  From the blocks to the whole result array.

  The grid has 32 points; point `t` reads the activations whole, rows 256·t … 256·t + 255 of the codes and of the two
  folded group-constant arrays and columns 256·t … of the bias row, and writes columns 256·t … 256·t + 255 of the
  [16, 8192] result.  So what point `t` writes back is tile `t` of the folded linear layer of the six arguments
  (`flushed_eq`), the 32 tiles cover the result array (`cover`), and after the run the array is that function
  (`final`, `run`).
-/
import proofs.«121792_j49761491091553_2_alg».proof.Proof.Gen.KernelIdeal.Value
import proofs.«121792_j49761491091553_2_alg».proof.Proof.Block
import proofs.«121792_j49761491091553_2_alg».proof.Proof.Entry

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Sinq Cert.KernelIdeal.Block Cert.KernelIdeal.Entry

variable (m : (ℓ : Loc nD τ sig) → Buf (Elt Ideal) ℓ) (ρ : Dev nD → PrngReg)

/-- The folded linear layer of the six arguments as launched. -/
abbrev folded (c : Dev nD) : S16x8192.Idx → EReal :=
  foldedResult (argX m c) (argQ m c) (argS m c) (argZ m c) (argS2 m c) (argB m c)

/-- The index maps over the grid: the activations' block never moves, the codes' and the group constants' blocks move
    down the rows and the bias' block along the columns with the output's column block. -/
theorem idx_facts : ∀ t : Fin cfg0.N,
    win0_0.index t (0 : Fin 2) = 0 ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) = 0 ∧ win0_5.index t (1 : Fin 2) ≤ 31 :=
  (by decide +kernel : ∀ t : Fin grid0.N, _)

/-- Every column block of the result is some point's. -/
theorem idx_onto : ∀ q1 : Fin 32, ∃ t : Fin cfg0.N, win0_5.index t = ![0, q1.val] :=
  (by decide +kernel : ∀ q1 : Fin 32, ∃ t : Fin grid0.N, win0_5.index t = ![0, q1.val])

/-- What point `t` writes back is tile `t` of the folded linear layer. -/
theorem flushed_eq (c : Dev nD) (t : Fin cfg0.N) :
    (dats m 0 c).flushed 5 t = ((cfg0.win 5).blk t).view.read (Elt Ideal) (folded m c) := by
  rw [Value.flushed5]
  obtain ⟨f00, f01, f10, f11, f20, f21, f30, f31, f40, f41, f50, f51⟩ := idx_facts t
  funext y
  have hy0 : (y 0).val < 16 := (y 0).isLt
  have hy1 : (y 1).val < 256 := (y 1).isLt
  show out0_5 (iblk m c 0 t) (iblk m c 1 t) (iblk m c 2 t) (iblk m c 3 t) (iblk m c 4 t) y
    = folded m c (((cfg0.win 5).blk t).view.emb y)
  refine block_eq (argX m c) (argQ m c) (argS m c) (argZ m c) (argS2 m c) (argB m c) ⟨win0_5.index t (1 : Fin 2), by omega⟩
    (iblk m c 0 t) (iblk m c 1 t) (iblk m c 2 t) (iblk m c 3 t) (iblk m c 4 t) ?_ ?_ ?_ ?_ ?_ y _ ?_ ?_
  · intro p k
    show (V m c main_v3 : S16x8192.Idx → EReal) (((cfg0.win 0).blk t).view.emb (ix2 p k)) = _
    refine (congrArg (V m c main_v3 : S16x8192.Idx → EReal) (idx2_ext _ (ix2 p k) ?_ ?_)).trans (x_apply m c p k)
    · show win0_0.index t (0 : Fin 2) * 16 + 1 * p.val = p.val; omega
    · show win0_0.index t (1 : Fin 2) * 8192 + 1 * k.val = k.val; omega
  · intro r k
    show (V m c main_arg1 : S8192x8192.Idx → BitVec 32) (((cfg0.win 1).blk t).view.emb (ix2 r k)) = _
    rw [V_q]
    refine congrArg (argQ m c) (idx2_ext _ _ ?_ ?_)
    · show win0_1.index t (0 : Fin 2) * 256 + 1 * r.val = 256 * win0_5.index t (1 : Fin 2) + r.val; omega
    · show win0_1.index t (1 : Fin 2) * 8192 + 1 * k.val = k.val; omega
  · intro r g
    show (V m c main_v1 : S8192x128.Idx → EReal) (((cfg0.win 2).blk t).view.emb (ix2 r g)) = _
    refine (congrArg (V m c main_v1 : S8192x128.Idx → EReal) (idx2_ext _ (ix2 (tileRow ⟨win0_5.index t (1 : Fin 2), by omega⟩ r) g) ?_ ?_)).trans
      (scale2_apply m c _ g)
    · show win0_2.index t (0 : Fin 2) * 256 + 1 * r.val = 256 * win0_5.index t (1 : Fin 2) + r.val; omega
    · show win0_2.index t (1 : Fin 2) * 128 + 1 * g.val = g.val; omega
  · intro r g
    show (V m c main_v2 : S8192x128.Idx → EReal) (((cfg0.win 3).blk t).view.emb (ix2 r g)) = _
    refine (congrArg (V m c main_v2 : S8192x128.Idx → EReal) (idx2_ext _ (ix2 (tileRow ⟨win0_5.index t (1 : Fin 2), by omega⟩ r) g) ?_ ?_)).trans
      (zs_apply m c _ g)
    · show win0_3.index t (0 : Fin 2) * 256 + 1 * r.val = 256 * win0_5.index t (1 : Fin 2) + r.val; omega
    · show win0_3.index t (1 : Fin 2) * 128 + 1 * g.val = g.val; omega
  · intro r
    show (V m c main_v4 : S1x8192.Idx → EReal) (((cfg0.win 4).blk t).view.emb (ix2 (0 : Fin 1) r)) = _
    refine (congrArg (V m c main_v4 : S1x8192.Idx → EReal) (idx2_ext _ (ix2 (0 : Fin 1) (tileRow ⟨win0_5.index t (1 : Fin 2), by omega⟩ r)) ?_ ?_)).trans
      (bias_apply m c _)
    · show win0_4.index t (0 : Fin 2) * 1 + 1 * 0 = 0; omega
    · show win0_4.index t (1 : Fin 2) * 256 + 1 * r.val = 256 * win0_5.index t (1 : Fin 2) + r.val; omega
  · show win0_5.index t (0 : Fin 2) * 16 + 1 * (y 0).val = (y 0).val; omega
  · show win0_5.index t (1 : Fin 2) * 256 + 1 * (y 1).val = 256 * win0_5.index t (1 : Fin 2) + (y 1).val; omega

/-- An index of the result is in point `t`'s block iff each coordinate is in the block's range on its axis. -/
theorem mem_blk (t : Fin cfg0.N) (i : S16x8192.Idx) :
    i ∈ ((cfg0.win 5).blk t).view.set ↔ ∀ a : Fin 2, win0_5.index t a * S16x256.size a ≤ (i a).val
      ∧ (i a).val < win0_5.index t a * S16x256.size a + S16x256.size a := by
  show i ∈ ((View.whole main_v5).slice (win0_5.rect t)).set ↔ _
  rw [View.set_slice_whole, Rect.mem_set_unit]
  exact Iff.rfl

/-- Every index of the result lies in the block of the point whose column block holds it. -/
theorem cover (i : S16x8192.Idx) : ∃ t : Fin cfg0.N, (cfg0.win 5).flush t = true ∧ i ∈ ((cfg0.win 5).blk t).view.set := by
  have hi0 : (i 0).val < 16 := (i 0).isLt
  have hi1 : (i 1).val < 8192 := (i 1).isLt
  obtain ⟨t, ht⟩ := idx_onto ⟨(i 1).val / 256, by omega⟩
  have q0 : win0_5.index t (0 : Fin 2) = 0 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 256 ≤ (i 1).val ∧ (i 1).val < win0_5.index t (1 : Fin 2) * 256 + 256; omega

/-- The result array after the run is the folded linear layer of the arguments. -/
theorem final (c : Dev nD) : (dats m 0 c).arrAt 5 cfg0.N = folded m c :=
  (dats m 0 c).arrAt_eq_of_cover 5 (folded m c) (fun t _ => flushed_eq m c t) cover

/-- The kernel's run with its result named: every weakly fair execution terminates with the result array at the
    folded linear layer of the arguments, the arguments unchanged. -/
theorem run : θ_run defs (onTc (τ := τ) (main (F := Ideal))) ⟨m, fun _ => 0, ρ⟩ fun r => ∀ c : Dev nD,
      r.2.mem ((c : Thread nD τ).loc main_v5) = folded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.Reference.lean ====
/-
  The reference computes the specification.

  The reference dequantises the whole weight matrix — the codes viewed by groups of 64 columns, less the group's zero
  point, times the group's scale, viewed flat again, times the row's scale —, transposes it, contracts the
  activations with it over the input columns and adds the bias spread over the tokens.  Read at an index, entry
  (t, o) is the sum over the columns k of x (t, k) · weight (o, k), plus bias (o): `Cert.Sinq.result`.
-/
import proofs.«121792_j49761491091553_2_alg».proof.Proof.Gen.ReferenceIdeal.Read
import proofs.«121792_j49761491091553_2_alg».proof.Proof.Algebra

noncomputable section

namespace Cert.ReferenceIdeal.RefValue

open Cert.ReferenceIdeal Cert.ReferenceIdeal.Gen Cert.ReferenceIdeal.Read Idealize.ShloMosaic Idealize.ShloMosaic.ValueIdx Cert.Sinq

/-- The reference's result, as the last stage of its run, is the specification of its six arguments. -/
theorem stage_eq (x0 : (⟨S16x8192, .f32⟩ : BufTy).Contents (Elt Ideal)) (x1 : (⟨S8192x8192, .i32⟩ : BufTy).Contents (Elt Ideal))
    (x2 x3 : (⟨S8192x128, .f32⟩ : BufTy).Contents (Elt Ideal)) (x4 : (⟨S8192x1, .f32⟩ : BufTy).Contents (Elt Ideal))
    (x5 : (⟨S8192, .f32⟩ : BufTy).Contents (Elt Ideal)) :
    val_main_v15 (F := Ideal) x0 x1 x2 x3 x4 x5 = result x0 x1 x2 x3 x4 x5 := by
  funext i
  have hi0 : (i 0).val < 16 := (i 0).isLt
  have hi1 : (i 1).val < 8192 := (i 1).isLt
  rw [val_main_v15_apply, val_main_v12_apply, val_main_v14_apply, val_main_v13_apply]
  unfold result
  refine congr (congrArg _ (Finset.sum_congr rfl fun k _ => ?_)) (congrArg x5 ?_)
  · have hk : k.val < 8192 := k.isLt
    -- the operand indices of the contraction, and the index each layout step reads
    have el : lidx_main_v12 i k = ix2 (i 0) k := idx2_ext _ _ rfl rfl
    have eq : idx_main_v1 (idx_main_v8 (idx_main_v11 (ridx_main_v12 i k))) = ix2 (i 1) k :=
      idx2_ext _ _
        (by show ((((i 1).val * 8192 + k.val) / 8192 * 128 + ((i 1).val * 8192 + k.val) / 64 % 128) * 64 + ((i 1).val * 8192 + k.val) % 64) / 8192 = (i 1).val; omega)
        (by show ((((i 1).val * 8192 + k.val) / 8192 * 128 + ((i 1).val * 8192 + k.val) / 64 % 128) * 64 + ((i 1).val * 8192 + k.val) % 64) % 8192 = k.val; omega)
    have ez : idx_main_v2 (idx_main_v3 (idx_main_v8 (idx_main_v11 (ridx_main_v12 i k)))) = ix2 (i 1) (groupOf k) :=
      idx2_ext _ _
        (by show ((i 1).val * 8192 + k.val) / 8192 = (i 1).val; omega)
        (by show ((i 1).val * 8192 + k.val) / 64 % 128 = k.val / 64; omega)
    have es : idx_main_v5 (idx_main_v6 (idx_main_v8 (idx_main_v11 (ridx_main_v12 i k)))) = ix2 (i 1) (groupOf k) :=
      idx2_ext _ _
        (by show ((i 1).val * 8192 + k.val) / 8192 = (i 1).val; omega)
        (by show ((i 1).val * 8192 + k.val) / 64 % 128 = k.val / 64; omega)
    have er : idx_main_v9 (idx_main_v11 (ridx_main_v12 i k)) = ix2 (i 1) (0 : Fin 1) := idx2_ext _ _ rfl rfl
    rw [val_main_v11_apply, val_main_v10_apply, val_main_v8_apply, val_main_v7_apply, val_main_v4_apply,
      val_main_v1_apply, val_main_v0_apply, val_main_v3_apply, val_main_v2_apply, val_main_v6_apply, val_main_v5_apply,
      val_main_v9_apply, el, eq, ez, es, er]
    rfl
  · funext a
    match a with
    | ⟨0, _⟩ => rfl

end Cert.ReferenceIdeal.RefValue

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.Finite.lean ====
/-
  What the precondition gives: real group scales, group zero points and row scales.

  "Every float input is finite" is the conjunction, over the five float arguments, of `all (|a| < +inf)`.  Each
  conjunct makes every entry of its array a real number.  The bridge between the two linear layers is distributivity,
  which needs exactly the group scales, the group zero points and the row scales to be real; the activations and the
  bias may be any extended reals.
-/
import proofs.«121792_j49761491091553_2_alg».proof.Proof.LibFiniteAll
import proofs.«121792_j49761491091553_2_alg».proof.Pre_finite_inputs
import Idealize.ShloMosaic.Lib.Affine

noncomputable section

namespace Cert.Pre_finite_inputs.Reals

open Idealize.ShloMosaic Cert.Pre_finite_inputs Cert.Pre_finite_inputs.Facts

variable [Facts]

/-- Under the precondition the group scales (`x2`), the group zero points (`x3`) and the row scales (`x4`) are real. -/
theorem of_pre (x0 : FVec Ideal S16x8192 .f32) (x1 : IVec S8192x8192 32) (x2 x3 : FVec Ideal S8192x128 .f32)
    (x4 : FVec Ideal S8192x1 .f32) (x5 : FVec Ideal S8192 .f32)
    (h : fn (F := Ideal) x0 x1 x2 x3 x4 x5 = fun _ => 1#1) :
    (∀ i, ∃ r : ℝ, x2 i = r) ∧ (∀ i, ∃ r : ℝ, x3 i = r) ∧ (∀ i, ∃ r : ℝ, x4 i = r) := by
  have h' := congrFun h ValueIdx.ix0
  dsimp only [fn, fn_part1, andi] at h'
  rw [IntOp.andi_eq_one, IntOp.andi_eq_one, IntOp.andi_eq_one, IntOp.andi_eq_one] at h'
  obtain ⟨⟨⟨⟨-, hs⟩, hz⟩, hs2⟩, -⟩ := h'
  exact ⟨FiniteAll.all_real x2 bcast_S_S8192x128 reducesTo_S8192x128_S_d0_1 h_S_ _ hs,
    FiniteAll.all_real x3 bcast_S_S8192x128 reducesTo_S8192x128_S_d0_1 h_S_ _ hz,
    FiniteAll.all_real x4 bcast_S_S8192x1 reducesTo_S8192x1_S_d0_1 h_S_ _ hs2⟩

end Cert.Pre_finite_inputs.Reals

end
-- ==== Proof.lean ====
/-
  A quantised linear layer: `out = x · Wᵀ + bias` over f32[16, 8192] activations, where the [8192, 8192] weight is
  dequantised from integer codes with a scale and a zero point per group of 64 input columns and a scale per output row:
  `W (o, k) = ((q (o, k) − zero (o, k / 64)) · scale (o, k / 64)) · s2 (o)`.

  The reference materialises `W` and makes one matrix product.  The kernel never forms `W`: outside the region it folds
  the row scale into the group constants (`scale2 = scale · s2`, `zs = zero · scale2`), and each of its 32 grid points
  takes 256 output rows, walks the input columns in four chunks of 2048, forms `q · scale2 − zs` on the chunk, multiplies
  by the chunk of activations and accumulates, adding the bias last.

  Over the extended reals the two agree because
    * a sum over the 8192 columns is the sum of its four chunks' sums (commutative-monoid laws only), and
    * `q · (s · s2) − z · (s · s2) = ((q − z) · s) · s2` for real `s`, `z`, `s2` — distributivity, which is where the
      precondition "every float input is finite" is used (for the group scales, group zero points and row scales; the
      integer code is a real number by itself, and the activations and the bias are not constrained).
  The changes of float format (the bf16 activations and weight tiles) are the identity at the ideal values.

  The modules: Algebra (the two laws and the specification `Cert.Sinq.result`), Chunk (one chunk of the body at an
  index), Block (the output block from the input blocks), Entry (the arrays the windows find at region entry), Whole
  (from the 32 blocks to the result array), Reference (the reference's run is the specification), Finite (what the
  precondition gives).  The kernel's frame run and blockwise value leg, the reference's run and its read-at-an-index
  lemmas are the generated modules imported below.
-/
import proofs.«121792_j49761491091553_2_alg».proof.Defs
import proofs.«121792_j49761491091553_2_alg».proof.Proof.Gen.Kernel
import proofs.«121792_j49761491091553_2_alg».proof.Proof.Gen.Kernel.Skeleton
import proofs.«121792_j49761491091553_2_alg».proof.Proof.Gen.Kernel.Launch
import proofs.«121792_j49761491091553_2_alg».proof.Proof.Gen.Kernel.Points
import proofs.«121792_j49761491091553_2_alg».proof.Proof.Gen.Kernel.Frame
import proofs.«121792_j49761491091553_2_alg».proof.Proof.Gen.KernelIdeal
import proofs.«121792_j49761491091553_2_alg».proof.Proof.Gen.KernelIdeal.Skeleton
import proofs.«121792_j49761491091553_2_alg».proof.Proof.Gen.KernelIdeal.Launch
import proofs.«121792_j49761491091553_2_alg».proof.Proof.Gen.KernelIdeal.Points
import proofs.«121792_j49761491091553_2_alg».proof.Proof.Gen.KernelIdeal.Frame
import proofs.«121792_j49761491091553_2_alg».proof.Proof.Gen.ReferenceIdeal
import proofs.«121792_j49761491091553_2_alg».proof.Proof.Gen.Pre_finite_inputs
import proofs.«121792_j49761491091553_2_alg».proof.Proof.Gen.KernelIdeal.Value
import proofs.«121792_j49761491091553_2_alg».proof.Proof.Gen.ReferenceIdeal.Run
import proofs.«121792_j49761491091553_2_alg».proof.Proof.Gen.ReferenceIdeal.Read
import proofs.«121792_j49761491091553_2_alg».proof.Proof.Whole
import proofs.«121792_j49761491091553_2_alg».proof.Proof.Reference
import proofs.«121792_j49761491091553_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing: there is no conjunct to restate. -/
theorem preserves : Cert.preserves_Kernel_KernelIdeal := trivial

/-- Both programs end with the result array at the specification of the six arguments: the kernel at the folded linear
    layer, which is the specification once the precondition has made the group constants and the row scales real; the
    reference at its run's term, which is the specification entry by entry. -/
theorem algebraic : Cert.algebraic_KernelIdeal_ReferenceIdeal := by
  intro m ρ m' ρ' hpre hagree
  refine ⟨fun c => Cert.Sinq.result (Cert.KernelIdeal.Entry.argX m c) (Cert.KernelIdeal.Entry.argQ m c)
    (Cert.KernelIdeal.Entry.argS m c) (Cert.KernelIdeal.Entry.argZ m c) (Cert.KernelIdeal.Entry.argS2 m c)
    (Cert.KernelIdeal.Entry.argB m c), ?_, ?_⟩
  · refine (θ_run Cert.KernelIdeal.defs _ _).mono (fun r h c => ⟨(h c).1.trans ?_, (h c).2⟩) (Cert.KernelIdeal.Whole.run m ρ)
    obtain ⟨hs, hz, hs2⟩ := Cert.Pre_finite_inputs.Reals.of_pre _ _ _ _ _ _ (hpre c)
    exact Cert.Sinq.foldedResult_eq _ _ _ _ _ _ hs hz hs2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, Cert.ReferenceIdeal.RefValue.stage_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
